-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128 : Shape := ⟨3, ![16, 128, 128]⟩
abbrev S16x128x128x128 : Shape := ⟨4, ![16, 128, 128, 128]⟩
abbrev S128x384 : Shape := ⟨2, ![128, 384]⟩
abbrev S128 : Shape := ⟨1, ![128]⟩
abbrev S128x256 : Shape := ⟨2, ![128, 256]⟩
abbrev S_ : Shape := ⟨0, ![]⟩

class Facts : Prop where
  bcast_S_S16x128x128 : S_.BroadcastsInDim S16x128x128 (![] : Fin 0 → Fin S16x128x128.rank)
  reducesTo_S16x128x128_S_d0_1_2 : S16x128x128.ReducesTo [0, 1, 2] S_
  h_S_ : 0 < S_.numel
  bcast_S_S16x128x128x128 : S_.BroadcastsInDim S16x128x128x128 (![] : Fin 0 → Fin S16x128x128x128.rank)
  reducesTo_S16x128x128x128_S_d0_1_2_3 : S16x128x128x128.ReducesTo [0, 1, 2, 3] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128 .f32) (main_arg5 : FVec F S128x256 .f32) (main_arg6 : FVec F S128 .f32) (main_v13 : IVec S_ 1) (main_v16 : IVec S128x384 1) : IVec S_ 1 :=
  let main_c_5 : IVec S_ 1 := constantI S_ 1 1#1
  let main_v17 : IVec S_ 1 := (fun x v => Host.reduce IntOp.andi x v reducesTo_S128x384_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S16x128x128 .f32) (main_arg1 : FVec F S16x128x128 .f32) (main_arg2 : FVec F S16x128x128x128 .f32) (main_arg3 : FVec F S128x384 .f32) (main_arg4 : FVec F S128 .f32) (main_arg5 : FVec F S128x256 .f32) (main_arg6 : FVec F S128 .f32) : IVec S_ 1 :=
  let main_v0 : FVec F S16x128x128 .f32 := Host.absf main_arg0
  let main_cst : FVec F S_ .f32 := constant S_ .f32 0x7F800000#32
  let main_v1 : FVec F S16x128x128 .f32 := broadcastInDim S16x128x128 ![] bcast_S_S16x128x128 main_cst
  let main_v2 : IVec S16x128x128 1 := cmpf .olt main_v0 main_v1
  let main_c : IVec S_ 1 := constantI S_ 1 1#1
  let main_v3 : IVec S_ 1 := (fun x v => Host.reduce IntOp.andi x v reducesTo_S16x128x128_S_d0_1_2 h_S_) main_v2 main_c
  let main_v4 : FVec F S16x128x128 .f32 := Host.absf main_arg1
  let main_cst_0 : FVec F S_ .f32 := constant S_ .f32 0x7F800000#32
  let main_v5 : FVec F S16x128x128 .f32 := broadcastInDim S16x128x128 ![] bcast_S_S16x128x128 main_cst_0
  let main_v6 : IVec S16x128x128 1 := cmpf .olt main_v4 main_v5
  let main_c_1 : IVec S_ 1 := constantI S_ 1 1#1
  let main_v7 : IVec S_ 1 := (fun x v => Host.reduce IntOp.andi x v reducesTo_S16x128x128_S_d0_1_2 h_S_) main_v6 main_c_1
  let main_v8 : IVec S_ 1 := andi main_v3 main_v7
  let main_v9 : FVec F S16x128x128x128 .f32 := Host.absf main_arg2
  let main_cst_2 : FVec F S_ .f32 := constant S_ .f32 0x7F800000#32
  let main_v10 : FVec F S16x128x128x128 .f32 := broadcastInDim S16x128x128x128 ![] bcast_S_S16x128x128x128 main_cst_2
  let main_v11 : IVec S16x128x128x128 1 := cmpf .olt main_v9 main_v10
  let main_c_3 : IVec S_ 1 := constantI S_ 1 1#1
  let main_v12 : IVec S_ 1 := (fun x v => Host.reduce IntOp.andi x v reducesTo_S16x128x128x128_S_d0_1_2_3 h_S_) main_v11 main_c_3
  let main_v13 : IVec S_ 1 := andi main_v8 main_v12
  let main_v14 : FVec F S128x384 .f32 := Host.absf main_arg3
  let main_cst_4 : FVec F S_ .f32 := constant S_ .f32 0x7F800000#32
  let main_v15 : FVec F S128x384 .f32 := broadcastInDim S128x384 ![] bcast_S_S128x384 main_cst_4
  let main_v16 : IVec S128x384 1 := cmpf .olt main_v14 main_v15
  fn_part1 (F := F) main_arg4 main_arg5 main_arg6 main_v13 main_v16
-- ==== Kernel.lean ====
abbrev S16x128x128 : Shape := ⟨3, ![16, 128, 128]⟩
abbrev S16x128x128x128 : Shape := ⟨4, ![16, 128, 128, 128]⟩
abbrev S128x384 : Shape := ⟨2, ![128, 384]⟩
abbrev S128 : Shape := ⟨1, ![128]⟩
abbrev S128x256 : Shape := ⟨2, ![128, 256]⟩
abbrev S384x128 : Shape := ⟨2, ![384, 128]⟩
abbrev S256x128 : Shape := ⟨2, ![256, 128]⟩
abbrev S1x128x128x128 : Shape := ⟨4, ![1, 128, 128, 128]⟩
abbrev S1x128x128 : Shape := ⟨3, ![1, 128, 128]⟩
abbrev S128x128 : Shape := ⟨2, ![128, 128]⟩
abbrev S128x1 : Shape := ⟨2, ![128, 1]⟩
abbrev S1x32x128x128 : Shape := ⟨4, ![1, 32, 128, 128]⟩
abbrev S32x128x128 : Shape := ⟨3, ![32, 128, 128]⟩
abbrev S1x32x128 : Shape := ⟨3, ![1, 32, 128]⟩
abbrev S32x128 : Shape := ⟨2, ![32, 128]⟩
abbrev S32x128x1 : Shape := ⟨3, ![32, 128, 1]⟩
abbrev S1x128 : Shape := ⟨2, ![1, 128]⟩

abbrev nBuf : Space → Nat
  | .hbm => 10
  | .vmem => 12
  | .smem => 0
  | _ => 0

abbrev bufTy : (tb : Table) → Fin (tcTables nBuf tb) → BufTy
  | .hbm, ⟨0, _⟩ => ⟨S16x128x128, .f32⟩
  | .hbm, ⟨1, _⟩ => ⟨S16x128x128, .f32⟩
  | .hbm, ⟨2, _⟩ => ⟨S16x128x128x128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S384x128, .f32⟩
  | .hbm, ⟨8, _⟩ => ⟨S256x128, .f32⟩
  | .hbm, ⟨9, _⟩ => ⟨S16x128x128, .f32⟩
  | .local _ .vmem, ⟨0, _⟩ => ⟨S1x128x128x128, .f32⟩
  | .local _ .vmem, ⟨1, _⟩ => ⟨S1x128x128x128, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S384x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S1x128x128, .f32⟩
  | .local _ .vmem, ⟨11, _⟩ => ⟨S1x128x128, .f32⟩
  | _, _ => ⟨S16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v24 : BitVec 32 := Scalar.addi c0_i32 c4_i32
  let c1_i32 : BitVec 32 := 1#32
  ⟨c0_i32, v24, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c32_i32 : BitVec 32 := 32#32
  let v48 : BitVec 32 := Scalar.muli arg9 c32_i32
  v48
def k0_off1 (k0_t1 : Fin k0_t1_loop.trips) : Fin 4 → Nat :=
  let c0_23 : Index := 0#32
  let c0_i32 : BitVec 32 := 0#32
  let c1_i32 : BitVec 32 := 1#32
  let arg9 : BitVec 32 := Scf.iv c0_i32 c1_i32 k0_t1
  let c32_i32 : BitVec 32 := 32#32
  let v48 : BitVec 32 := Scalar.muli arg9 c32_i32
  let v49 : BitVec 32 := v48
  let v50 : Index := Scalar.indexCast v49
  let c0_24 : Index := 0#32
  let c0_25 : Index := 0#32
  ![0, v50.toNat, 0, 0]
def k0_off2 (k0_t1 : Fin k0_t1_loop.trips) : Fin 3 → Nat :=
  let c0_26 : Index := 0#32
  let c0_i32 : BitVec 32 := 0#32
  let c1_i32 : BitVec 32 := 1#32
  let arg9 : BitVec 32 := Scf.iv c0_i32 c1_i32 k0_t1
  let c32_i32 : BitVec 32 := 32#32
  let v48 : BitVec 32 := Scalar.muli arg9 c32_i32
  let v49 : BitVec 32 := v48
  let v53 : Index := Scalar.indexCast v49
  let c0_27 : Index := 0#32
  ![0, v53.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x384_S384x128_1_0 : S128x384.Transposes [1, 0] S384x128
  transposes_S128x256_S256x128_1_0 : S128x256.Transposes [1, 0] S256x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  bitsLt_bf16_f32 : FTy.bits .bf16 < FTy.bits .f32
  inb_S384x128_S128x128_0_0 : ∀ a, (![0, 0] : Fin 2 → Nat) a + S128x128.size a ≤ S384x128.size a
  h_S128x128 : 0 < S128x128.numel
  shapeCasts_S128x128_S128x128 : S128x128.ShapeCasts S128x128
  inb_S384x128_S128x128_128_0 : ∀ a, (![128, 0] : Fin 2 → Nat) a + S128x128.size a ≤ S384x128.size a
  inb_S384x128_S128x128_256_0 : ∀ a, (![256, 0] : Fin 2 → Nat) a + S128x128.size a ≤ S384x128.size a
  transposes_S128x128_p1_0_S128x128 : S128x128.Transposes [1, 0] S128x128
  reduces_S128x128_S128 : S128x128.Reduces [1] S128
  shapeCasts_S128_S128x1 : S128.ShapeCasts S128x1
  inb_S128_S128_0 : ∀ a, (![0] : Fin 1 → Nat) a + S128.size a ≤ S128.size a
  h_S128 : 0 < S128.numel
  h_S1x32x128x128 : 0 < S1x32x128x128.numel
  shapeCasts_S1x32x128x128_S32x128x128 : S1x32x128x128.ShapeCasts S32x128x128
  h_S1x32x128 : 0 < S1x32x128.numel
  shapeCasts_S1x32x128_S32x128 : S1x32x128.ShapeCasts S32x128
  shapeCasts_S32x128_S32x128x1 : S32x128.ShapeCasts S32x128x1
  broadcasts_S32x128x1_S32x128x128 : S32x128x1.Broadcasts S32x128x128
  reduces_S32x128x128_S128x128 : S32x128x128.Reduces [0] S128x128
  shapeCasts_S128_S1x128 : S128.ShapeCasts S1x128
  broadcasts_S1x128_S128x128 : S1x128.Broadcasts S128x128
  broadcasts_S128x1_S128x128 : S128x1.Broadcasts S128x128
  concatenates_S128x128_S128x128_S128x256_d1 : Shape.Concatenates [S128x128, S128x128] S128x256 1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128x128_S1x128x128 : S128x128.ShapeCasts S1x128x128
  dot_S128x128_S128x128_S128x128_1_0_0_1_n_n_wf : DotDims.WF S128x128 S128x128 S128x128 [1] [0] [0] [1] [] []
  dot_S128x256_S256x128_S128x128_1_0_0_1_n_n_wf : DotDims.WF S128x256 S256x128 S128x128 [1] [0] [0] [1] [] []
  hrank0 : 0 < grid0.rank
  k0_t1_ok : k0_t1_loop.OK
  k0_mult1_dvd : ∀ k0_t1 : Fin k0_t1_loop.trips, 32 ∣ (k0_mult1 k0_t1).toNat
  k0_off1_inb : ∀ k0_t1 : Fin k0_t1_loop.trips, ∀ a, (k0_off1 k0_t1) a + S1x32x128x128.size a ≤ S1x128x128x128.size a
  k0_off2_inb : ∀ k0_t1 : Fin k0_t1_loop.trips, ∀ a, (k0_off2 k0_t1) a + S1x32x128.size a ≤ S1x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128x128.size a ≤ S16x128x128x128.size a
  hwx0_0 : ∀ i : grid0.Coords, EltTy.bits .f32 = 32 ∨ (Rect.block (s := S16x128x128x128) S1x128x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S16x128x128.size a
  hwx0_1 : ∀ i : grid0.Coords, EltTy.bits .f32 = 32 ∨ (Rect.block (s := S16x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S16x128x128.size a
  hwx0_2 : ∀ i : grid0.Coords, EltTy.bits .f32 = 32 ∨ (Rect.block (s := S16x128x128) S1x128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x128.size a ≤ S16x128x128.size a
  hwx0_7 : ∀ i : grid0.Coords, EltTy.bits .f32 = 32 ∨ (Rect.block (s := S16x128x128) S1x128x128.size (cc0_transform_7 i) (hinb0_7 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_arg2) S1x128x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x128x128 : Shape := ⟨3, ![16, 128, 128]⟩
abbrev S16x128x128x128 : Shape := ⟨4, ![16, 128, 128, 128]⟩
abbrev S128x384 : Shape := ⟨2, ![128, 384]⟩
abbrev S128 : Shape := ⟨1, ![128]⟩
abbrev S128x256 : Shape := ⟨2, ![128, 256]⟩
abbrev S128x128 : Shape := ⟨2, ![128, 128]⟩
abbrev S16x128x1x128 : Shape := ⟨4, ![16, 128, 1, 128]⟩
abbrev S16x1x128x128 : Shape := ⟨4, ![16, 1, 128, 128]⟩
abbrev S1x1x1x128 : Shape := ⟨4, ![1, 1, 1, 128]⟩
abbrev S16x128x128x1 : Shape := ⟨4, ![16, 128, 128, 1]⟩
abbrev S_ : Shape := ⟨0, ![]⟩
abbrev S16x128x256 : Shape := ⟨3, ![16, 128, 256]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S16x128x128, .f32⟩
  | .hbm, ⟨1, _⟩ => ⟨S16x128x128, .f32⟩
  | .hbm, ⟨2, _⟩ => ⟨S16x128x128x128, .f32⟩
  | .hbm, ⟨3, _⟩ => ⟨S128x384, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S16x128x128, .f32⟩
  | .hbm, ⟨11, _⟩ => ⟨S16x128x128, .f32⟩
  | .hbm, ⟨12, _⟩ => ⟨S16x128x128x128, .f32⟩
  | .hbm, ⟨13, _⟩ => ⟨S16x128x1x128, .f32⟩
  | .hbm, ⟨14, _⟩ => ⟨S16x1x128x128, .f32⟩
  | .hbm, ⟨15, _⟩ => ⟨S16x128x128x128, .f32⟩
  | .hbm, ⟨16, _⟩ => ⟨S16x128x128x128, .f32⟩
  | .hbm, ⟨17, _⟩ => ⟨S16x128x128x128, .f32⟩
  | .hbm, ⟨18, _⟩ => ⟨S16x128x128x128, .f32⟩
  | .hbm, ⟨19, _⟩ => ⟨S1x1x1x128, .f32⟩
  | .hbm, ⟨20, _⟩ => ⟨S16x128x128x128, .f32⟩
  | .hbm, ⟨21, _⟩ => ⟨S16x128x128x128, .f32⟩
  | .hbm, ⟨22, _⟩ => ⟨S16x128x128x1, .f32⟩
  | .hbm, ⟨23, _⟩ => ⟨S16x128x128x128, .f32⟩
  | .hbm, ⟨24, _⟩ => ⟨S16x128x128x128, .f32⟩
  | .hbm, ⟨25, _⟩ => ⟨S_, .f32⟩
  | .hbm, ⟨26, _⟩ => ⟨S16x128x128, .f32⟩
  | .hbm, ⟨27, _⟩ => ⟨S16x128x256, .f32⟩
  | .hbm, ⟨28, _⟩ => ⟨S16x128x128, .f32⟩
  | .hbm, ⟨29, _⟩ => ⟨S1x1x128, .f32⟩
  | .hbm, ⟨30, _⟩ => ⟨S16x128x128, .f32⟩
  | .hbm, ⟨31, _⟩ => ⟨S16x128x128, .f32⟩
  | _, _ => ⟨S16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  slices_S128x384_S128x128_0_0 : S128x384.Slices ![0, 0] S128x128
  slices_S128x384_S128x128_0_128 : S128x384.Slices ![0, 128] S128x128
  slices_S128x384_S128x128_0_256 : S128x384.Slices ![0, 256] S128x128
  bcast_S16x128x128_S16x128x1x128_0_1_3 : S16x128x128.BroadcastsInDim S16x128x1x128 (![0, 1, 3] : Fin 3 → Fin S16x128x1x128.rank)
  bcast_S16x128x128_S16x1x128x128_0_2_3 : S16x128x128.BroadcastsInDim S16x1x128x128 (![0, 2, 3] : Fin 3 → Fin S16x1x128x128.rank)
  bcast_S16x128x1x128_S16x128x128x128_0_1_2_3 : S16x128x1x128.BroadcastsInDim S16x128x128x128 (![0, 1, 2, 3] : Fin 4 → Fin S16x128x128x128.rank)
  bcast_S16x1x128x128_S16x128x128x128_0_1_2_3 : S16x1x128x128.BroadcastsInDim S16x128x128x128 (![0, 1, 2, 3] : Fin 4 → Fin S16x128x128x128.rank)
  bcast_S128_S1x1x1x128_3 : S128.BroadcastsInDim S1x1x1x128 (![3] : Fin 1 → Fin S1x1x1x128.rank)
  bcast_S1x1x1x128_S16x128x128x128_0_1_2_3 : S1x1x1x128.BroadcastsInDim S16x128x128x128 (![0, 1, 2, 3] : Fin 4 → Fin S16x128x128x128.rank)
  bcast_S16x128x128_S16x128x128x1_0_1_2 : S16x128x128.BroadcastsInDim S16x128x128x1 (![0, 1, 2] : Fin 3 → Fin S16x128x128x1.rank)
  bcast_S16x128x128x1_S16x128x128x128_0_1_2_3 : S16x128x128x1.BroadcastsInDim S16x128x128x128 (![0, 1, 2, 3] : Fin 4 → Fin S16x128x128x128.rank)
  reducesTo_S16x128x128x128_S16x128x128_d1 : S16x128x128x128.ReducesTo [1] S16x128x128
  h_S_ : 0 < S_.numel
  concatenates_S16x128x128_S16x128x128_S16x128x256_d2 : Shape.Concatenates [S16x128x128, S16x128x128] S16x128x256 2
  bcast_S128_S1x1x128_2 : S128.BroadcastsInDim S1x1x128 (![2] : Fin 1 → Fin S1x1x128.rank)
  bcast_S1x1x128_S16x128x128_0_1_2 : S1x1x128.BroadcastsInDim S16x128x128 (![0, 1, 2] : Fin 3 → Fin S16x128x128.rank)
  dot_S16x128x128_S128x128_S16x128x128_2_1_01_0_n_n_wf : DotDims.WF S16x128x128 S128x128 S16x128x128 [2] [1] [0, 1] [0] [] []
  dot_S16x128x128x128_S128x128_S16x128x128x128_3_1_012_0_n_n_wf : DotDims.WF S16x128x128x128 S128x128 S16x128x128x128 [3] [1] [0, 1, 2] [0] [] []
  dot_S16x128x256_S128x256_S16x128x128_2_1_01_0_n_n_wf : DotDims.WF S16x128x256 S128x256 S16x128x128 [2] [1] [0, 1] [0] [] []

variable [Facts₀]

def dot_S16x128x128_S128x128_S16x128x128_2_1_01_0_n_n : DotDims S16x128x128 S128x128 S16x128x128 where
  lhsContracting := [2]
  rhsContracting := [1]
  lhsNonContracting := [0, 1]
  rhsNonContracting := [0]
  lhsBatch := []
  rhsBatch := []
  wf := dot_S16x128x128_S128x128_S16x128x128_2_1_01_0_n_n_wf
def dot_S16x128x128x128_S128x128_S16x128x128x128_3_1_012_0_n_n : DotDims S16x128x128x128 S128x128 S16x128x128x128 where
  lhsContracting := [3]
  rhsContracting := [1]
  lhsNonContracting := [0, 1, 2]
  rhsNonContracting := [0]
  lhsBatch := []
  rhsBatch := []
  wf := dot_S16x128x128x128_S128x128_S16x128x128x128_3_1_012_0_n_n_wf
def dot_S16x128x256_S128x256_S16x128x128_2_1_01_0_n_n : DotDims S16x128x256 S128x256 S16x128x128 where
  lhsContracting := [2]
  rhsContracting := [1]
  lhsNonContracting := [0, 1]
  rhsNonContracting := [0]
  lhsBatch := []
  rhsBatch := []
  wf := dot_S16x128x256_S128x256_S16x128x128_2_1_01_0_n_n_wf

class Facts : Prop extends Facts₀ where

variable [Facts]
-- ==== Proof.LibERealCoe.lean ====
/-
  The reals inside the extended reals.

  The inclusion of the real numbers into the extended reals is an order embedding and an additive map on the reals, so
  it commutes with finite sums, with `min` and with `max`: an expression built from real entries by these operations may
  be computed in the reals and included afterwards.
-/
import Mathlib.Data.EReal.Operations
import Mathlib.Algebra.BigOperators.Fin

namespace Cert.LibERealCoe

/-- The inclusion of the reals commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with `min`. -/
theorem coe_min (a b : ℝ) : ((min a b : ℝ) : EReal) = min (a : EReal) (b : EReal) :=
  (EReal.coe_strictMono.monotone).map_min

/-- The inclusion of the reals commutes with `max`. -/
theorem coe_max (a b : ℝ) : ((max a b : ℝ) : EReal) = max (a : EReal) (b : EReal) :=
  (EReal.coe_strictMono.monotone).map_max

end Cert.LibERealCoe
-- ==== Proof.Spec.lean ====
/-
  One message-passing layer on a dense graph, as a function of its argument arrays.

  For a batch entry `b`, a receiving node `j` and an output feature `k`, the message reaching `j` is the sum over the sending
  nodes `i`, masked by the adjacency entry `adj[b,i,j]`, of

      W₁ h[b,i] + W₂ h[b,j] + W₃ e[b,i,j] + bm,

  where W₁, W₂, W₃ are the three 128-column bands of the message weight `wm : [128, 384]` (rows are output features). The
  node's new state is the update weight `wu : [128, 256]` applied to the node's old state joined with its message, plus `bu`.

  The same message can be summed in another order: the masked sum over senders is linear, so it passes through the three
  projections —

      Σᵢ adj[i,j] · (W₁ h[i])  +  (Σᵢ adj[i,j]) · (W₂ h[j] + bm)  +  W₃ (Σᵢ adj[i,j] · e[i,j]).

  The two orders agree by distributivity and an exchange of two finite sums. Distributivity fails at the infinities of the
  extended reals, so the law is stated for arrays all of whose entries are real numbers; it is proved in the reals and
  carried across the inclusion, which commutes with sums and products of reals.
-/
import Idealize.ShloMosaic.PureOps.Ideal
import Idealize.ShloMosaic.Lib.ValueIdx
import proofs.«168689_j4140348474008_2_alg».proof.Proof.LibERealCoe

noncomputable section

open scoped BigOperators

namespace Cert.MsgPass

open Idealize.ShloMosaic Idealize.ShloMosaic.ValueIdx

/-- Node states, adjacency and the result: batch × node × (feature or node). -/
abbrev NodeArr : Shape := ⟨3, ![16, 128, 128]⟩
/-- Edge features: batch × sender × receiver × feature. -/
abbrev EdgeArr : Shape := ⟨4, ![16, 128, 128, 128]⟩
/-- The message weight: output feature × (sender band, receiver band, edge band). -/
abbrev MsgW : Shape := ⟨2, ![128, 384]⟩
/-- The update weight: output feature × (old state, message). -/
abbrev UpdW : Shape := ⟨2, ![128, 256]⟩
/-- A bias vector. -/
abbrev Bias : Shape := ⟨1, ![128]⟩

/-! ## The law, in the reals -/

/-- A masked sum over senders of `p1 i + p2 + (Σ_d e i d · w d) + bm` is the sum of the masked `p1`, the degree times
    `p2 + bm`, and the projection of the masked sum of `e`. -/
theorem real_law {ι δ : Type*} [Fintype ι] [Fintype δ] (a p1 : ι → ℝ) (p2 bm : ℝ) (e : ι → δ → ℝ) (w : δ → ℝ) :
    ((∑ i, a i * p1 i) + (∑ i, a i) * (p2 + bm)) + ∑ d, (∑ i, e i d * a i) * w d
      = ∑ i, (((p1 i + p2) + ∑ d, e i d * w d) + bm) * a i := by
  have h3 : ∑ d, (∑ i, e i d * a i) * w d = ∑ i, (∑ d, e i d * w d) * a i := by
    simp only [Finset.sum_mul]
    rw [Finset.sum_comm]
    exact Finset.sum_congr rfl fun i _ => Finset.sum_congr rfl fun d _ => by ring
  have h4 : ∀ i, (((p1 i + p2) + ∑ d, e i d * w d) + bm) * a i
      = a i * p1 i + (p2 + bm) * a i + (∑ d, e i d * w d) * a i := fun i => by ring
  rw [h3]
  simp only [h4, Finset.sum_add_distrib, ← Finset.mul_sum]
  ring

/-! ## The layer on the extended reals -/

section
variable (h adj : NodeArr.Idx → EReal) (e : EdgeArr.Idx → EReal) (wm : MsgW.Idx → EReal) (bm : Bias.Idx → EReal)
  (wu : UpdW.Idx → EReal) (bu : Bias.Idx → EReal)

/-- A row `x` of 128 features projected on row `k` of the band of the message weight that starts at column `off`. -/
def proj (off : ℕ) (hoff : off + 128 ≤ 384) (x : Fin 128 → EReal) (k : Fin 128) : EReal :=
  ∑ d : Fin 128, x d * wm (ix2 k ⟨off + d.val, by omega⟩)

/-- The message reaching node `j`, summed sender by sender. -/
def msg (b : Fin 16) (j k : Fin 128) : EReal :=
  ∑ i : Fin 128,
    (((proj wm 0 (by omega) (fun d => h (ix3 b i d)) k + proj wm 128 (by omega) (fun d => h (ix3 b j d)) k)
        + proj wm 256 (by omega) (fun d => e (ix4 b i j d)) k) + bm (ix1 k)) * adj (ix3 b i j)

/-- The same message with the masked sum taken before the projections. -/
def msgRegrouped (b : Fin 16) (j k : Fin 128) : EReal :=
  ((∑ i : Fin 128, adj (ix3 b i j) * proj wm 0 (by omega) (fun d => h (ix3 b i d)) k)
      + (∑ i : Fin 128, adj (ix3 b i j)) * (proj wm 128 (by omega) (fun d => h (ix3 b j d)) k + bm (ix1 k)))
    + proj wm 256 (by omega) (fun d => ∑ i : Fin 128, e (ix4 b i j d) * adj (ix3 b i j)) k

/-- A node's old state joined with its message `M`: feature `d` below 128 is the state's, the rest the message's. -/
def joined (M : Fin 16 → Fin 128 → Fin 128 → EReal) (b : Fin 16) (n : Fin 128) (d : Fin 256) : EReal :=
  if hd : d.val < 128 then h (ix3 b n ⟨d.val, hd⟩) else M b n ⟨d.val - 128, by omega⟩

/-- The layer's result for a given message `M`: the update weight applied to the joined row, plus the update bias. -/
def layerOf (M : Fin 16 → Fin 128 → Fin 128 → EReal) : NodeArr.Idx → EReal := fun y =>
  (∑ d : Fin 256, joined h M (y 0) (y 1) d * wu (ix2 (y 2) d)) + bu (ix1 (y 2))

/-- THE LAYER: its result as one function of the seven argument arrays. -/
def layer : NodeArr.Idx → EReal := layerOf h wu bu (msg h adj e wm bm)

/-- The layer with the regrouped message. -/
def layerRegrouped : NodeArr.Idx → EReal := layerOf h wu bu (msgRegrouped h adj e wm bm)

end

/-! ## The two orders agree on real arrays -/

/-- An array all of whose entries are real numbers. -/
def IsReal {s : Shape} (x : s.Idx → EReal) : Prop := ∃ r : s.Idx → ℝ, x = fun i => (r i : EReal)

/-- An array with no infinite entry is an array of reals. -/
theorem isReal_of_ne {s : Shape} (x : s.Idx → EReal) (hx : ∀ i, x i ≠ ⊤ ∧ x i ≠ ⊥) : IsReal x :=
  ⟨fun i => (x i).toReal, funext fun i => (EReal.coe_toReal (hx i).1 (hx i).2).symm⟩

/-- On real arrays the regrouped message is the message. -/
theorem msgRegrouped_eq_msg {h adj : NodeArr.Idx → EReal} {e : EdgeArr.Idx → EReal} {wm : MsgW.Idx → EReal}
    {bm : Bias.Idx → EReal} (hh : IsReal h) (ha : IsReal adj) (he : IsReal e) (hw : IsReal wm) (hb : IsReal bm)
    (b : Fin 16) (j k : Fin 128) : msgRegrouped h adj e wm bm b j k = msg h adj e wm bm b j k := by
  obtain ⟨hr, rfl⟩ := hh
  obtain ⟨ar, rfl⟩ := ha
  obtain ⟨er, rfl⟩ := he
  obtain ⟨wr, rfl⟩ := hw
  obtain ⟨br, rfl⟩ := hb
  unfold msgRegrouped msg proj
  simp only [← EReal.coe_mul, ← Cert.LibERealCoe.coe_sum, ← EReal.coe_add]
  exact congrArg _ (real_law (fun i => ar (ix3 b i j)) _ _ _ (fun i d => er (ix4 b i j d)) _)

/-- So on real arrays the layer with the regrouped message is the layer. -/
theorem layerRegrouped_eq_layer {h adj : NodeArr.Idx → EReal} {e : EdgeArr.Idx → EReal} {wm : MsgW.Idx → EReal}
    {bm : Bias.Idx → EReal} (wu : UpdW.Idx → EReal) (bu : Bias.Idx → EReal)
    (hh : IsReal h) (ha : IsReal adj) (he : IsReal e) (hw : IsReal wm) (hb : IsReal bm) :
    layerRegrouped h adj e wm bm wu bu = layer h adj e wm bm wu bu := by
  funext y
  unfold layerRegrouped layer layerOf
  refine congrArg (· + _) (Finset.sum_congr rfl fun d _ => ?_)
  unfold joined
  by_cases hd : d.val < 128
  · rw [dif_pos hd, dif_pos hd]
  · rw [dif_neg hd, dif_neg hd]
    exact congrArg (· * _) (msgRegrouped_eq_msg hh ha he hw hb _ _ _)

end Cert.MsgPass

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.LibLeadAxis.lean ====
/-
  A trailing unit axis, and a sum over the leading axis of a rank-3 array, read at an index given by coordinates.

  A mask `[a, b]` that multiplies an array `[a, b, c]` entry by entry is first cast to `[a, b, 1]` and then repeated along the
  new last axis; at `(i, j, d)` both steps read the mask at `(i, j)`. A sum of an `[a, b, c]` array over its leading axis is,
  at `(p, q)`, the sum over `k` of the entries `(k, p, q)`.
-/
import Idealize.ShloMosaic.Lib.ValueIdx
import Idealize.ShloMosaic.Lib.Pipeline.Value
import Idealize.ShloMosaic.PureOps.Ideal.Laws

noncomputable section

open scoped BigOperators

namespace Cert.LibLeadAxis

open Idealize.ShloMosaic Idealize.ShloMosaic.ValueIdx

/-- A `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array repeated along its last axis to `[a, b, c]` reads, at `(i, j, d)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The index a reduction over the leading axis of a rank-3 array inserts: `(k, p, q)`. -/
theorem lift_lead {a b c : ℕ} (h : (⟨3, ![a, b, c]⟩ : Shape).Reduces [0] ⟨2, ![b, c]⟩) (p : Fin b) (q : Fin c) (k : Fin a) :
    h.lift (ix2 p q) k = ix3 k p q :=
  funext fun ax => Fin.ext (by match ax with | ⟨0, _⟩ => rfl | ⟨1, _⟩ => rfl | ⟨2, _⟩ => rfl)

/-- The sum over the leading axis of an `[a, b, c]` array at `(p, q)`. -/
theorem leadSum_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (p : Fin b) (q : Fin c) :
    multiReduction .add [0] ⟨2, ![b, c]⟩ src acc h hφ hacc (ix2 p q) = ∑ k : Fin a, src (ix3 k p q) := by
  refine (Ideal.multiReduction_add_single src acc h hφ hacc (ix2 p q)).trans ?_
  exact Finset.sum_congr rfl fun k _ => congrArg src (lift_lead h p q k)

end Cert.LibLeadAxis

end
-- ==== Proof.KernelBody.lean ====
/-
  The kernel body's arithmetic read at an index.

  At one grid point the body sees one batch entry: the state block `hb : [1,128,128]`, the adjacency block
  `ab : [1,128,128]` (sender × receiver), the edge block `[1,128,128,128]` (sender × receiver × feature), the three
  128-row bands `w1 w2 w3` of the transposed message weight, the bias `bm`, the transposed update weight and `bu`.
  Entry by entry, on the extended reals:

  * one chunk of the sender loop adds, to the carried `[128,128]` tile at (receiver j, feature d), the sum over the
    chunk's 32 senders of edge × adjacency;
  * the joined `[128,256]` tile is the state in its first 128 columns and, in the last 128, at (j, k),
    Σ_c ab[c,j] · (Σ_d hb[c,d] · w1[d,k])  +  (Σ_c ab[c,j]) · (Σ_d hb[j,d] · w2[d,k] + bm[k])  +  Σ_d esum[j,d] · w3[d,k];
  * the stored block at (n, k) is Σ_d joined[n,d] · wuT[d,k] + bu[k].

  Each matrix product is into a zero tile, so it is the plain sum over the contracted axis; each change of float format is
  the identity; the casts, the transpose and the broadcasts only rename coordinates.
-/
import proofs.«168689_j4140348474008_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«168689_j4140348474008_2_alg».proof.Proof.LibPlainDot
import proofs.«168689_j4140348474008_2_alg».proof.Proof.LibKeepdims
import proofs.«168689_j4140348474008_2_alg».proof.Proof.LibLeadAxis

noncomputable section

open scoped BigOperators

namespace Cert.KernelIdeal.Body

open Cert.KernelIdeal Cert.KernelIdeal.Gen Cert.LibLeadAxis Idealize.ShloMosaic Idealize.ShloMosaic.ValueIdx

/-- The body's two matrix-product records are the plain products of their sizes. -/
theorem dot128_plain : dot_S128x128_S128x128_S128x128_1_0_0_1_n_n = DotDims.plain 128 128 128 := rfl
theorem dot256_plain : dot_S128x256_S256x128_S128x128_1_0_0_1_n_n = DotDims.plain 128 256 128 := rfl

/-- A product by the 128-record into the zero tile at `(a, b)`. -/
theorem mm128 {φ₁ φ₂ : FTy} (A : FVec Ideal S128x128 φ₁) (B : FVec Ideal S128x128 φ₂) (a b : Fin 128) :
    matmul dot_S128x128_S128x128_S128x128_1_0_0_1_n_n none A B (constant (F := Ideal) S128x128 .f32 0x00000000#32) (ix2 a b)
      = ∑ c : Fin 128, A (ix2 a c) * B (ix2 c b) := by
  rw [dot128_plain]; exact Cert.LibPlainDot.matmul_plain_zero_apply none A B a b

/-- A product by the 256-record into the zero tile at `(a, b)`. -/
theorem mm256 {φ₁ φ₂ : FTy} (A : FVec Ideal S128x256 φ₁) (B : FVec Ideal S256x128 φ₂) (a b : Fin 128) :
    matmul dot_S128x256_S256x128_S128x128_1_0_0_1_n_n none A B (constant (F := Ideal) S128x128 .f32 0x00000000#32) (ix2 a b)
      = ∑ c : Fin 256, A (ix2 a c) * B (ix2 c b) := by
  rw [dot256_plain]; exact Cert.LibPlainDot.matmul_plain_zero_apply none A B a b

/-! ## The sender loop -/

/-- The loop starts from the zero tile. -/
theorem start_apply (j d : Fin 128) : k0_pay2 (F := Ideal) (ix2 j d) = 0 := Ideal.ofBits_zero_f32

/-- One chunk: the carried tile plus the chunk's 32 masked edge rows. -/
theorem chunk_apply (acc : FVec Ideal S128x128 .f32) (ec : Vec Ideal S1x32x128x128 .f32) (ac : Vec Ideal S1x32x128 .f32)
    (j d : Fin 128) :
    k0_pay3 (F := Ideal) acc ec ac (ix2 j d)
      = acc (ix2 j d) + ∑ r : Fin 32, ec (ix4 (0 : Fin 1) r j d) * ac (ix3 (0 : Fin 1) r j) := by
  unfold k0_pay3
  refine congrArg (acc (ix2 j d) + ·) ?_
  refine (leadSum_apply _ _ reduces_S32x128x128_S128x128 _ _ j d).trans ?_
  refine Finset.sum_congr rfl fun r _ => ?_
  show shapeCast S32x128x128 ec _ (ix3 r j d) * broadcastTo S32x128x128 _ _ (ix3 r j d) = _
  rw [shapeCast_1abc_abc_apply, broadcastTo_ab1_abc_apply, shapeCast_ab_ab1_apply, shapeCast_1ab_ab_apply]

/-! ## The joined tile -/

/-- A `[1,128,128]` block, cast to a matrix and narrowed, times a narrowed `[128,128]` matrix: row `p` against column `k`. -/
theorem rows_apply (x : Vec Ideal S1x128x128 .f32) (w : Vec Ideal S128x128 .f32) (p k : Fin 128) :
    (∑ d : Fin 128, (truncf .bf16 (shapeCast S128x128 x shapeCasts_S1x128x128_S128x128) bitsLt_bf16_f32 : FVec Ideal S128x128 .bf16) (ix2 p d)
        * (truncf .bf16 (shapeCast S128x128 w shapeCasts_S128x128_S128x128) bitsLt_bf16_f32 : FVec Ideal S128x128 .bf16) (ix2 d k))
      = ∑ d : Fin 128, x (ix3 (0 : Fin 1) p d) * w (ix2 d k) := by
  refine Finset.sum_congr rfl fun d _ => ?_
  show shapeCast S128x128 x _ (ix2 p d) * shapeCast S128x128 w _ (ix2 d k) = _
  rw [shapeCast_1ab_ab_apply, shapeCast_self]

/-- The adjacency block cast to a matrix and transposed reads, at (receiver `n`, sender `c`), the block at `(0, c, n)`. -/
theorem adjT_apply (x : Vec Ideal S1x128x128 .f32) (n c : Fin 128) :
    (transpose S128x128 [1, 0] (shapeCast S128x128 x shapeCasts_S1x128x128_S128x128) transposes_S128x128_p1_0_S128x128
      : FVec Ideal S128x128 .f32) (ix2 n c) = x (ix3 (0 : Fin 1) c n) :=
  (transpose_ix2_apply _ _ n c).trans (shapeCast_1ab_ab_apply x _ c n)

section
variable (hb ab : Vec Ideal S1x128x128 .f32) (w1 w2 w3 : Vec Ideal S128x128 .f32) (bm : Vec Ideal S128 .f32)
  (esum : FVec Ideal S128x128 .f32)

/-- Its first 128 columns are the state block. -/
theorem joined_state (n d : Fin 128) :
    k0_pay4 (F := Ideal) hb w1 w2 w3 ab bm esum (ix2 n ⟨d.val, by have := d.isLt; omega⟩) = hb (ix3 (0 : Fin 1) n d) := by
  unfold k0_pay4
  refine (concatenate_pair_apply_left (t := S128x256) (s₁ := S128x128) (s₂ := S128x128) 1 _ _ _
    (ix2 n ⟨d.val, by have := d.isLt; omega⟩) rfl (ix2 n d)
    (fun b => by match b with | ⟨0, _⟩ => rfl | ⟨1, _⟩ => rfl)).trans ?_
  exact shapeCast_1ab_ab_apply hb _ n d

/-- Its last 128 columns are the message, with the masked sum taken before the projections. -/
theorem joined_msg (n k : Fin 128) :
    k0_pay4 (F := Ideal) hb w1 w2 w3 ab bm esum (ix2 n ⟨128 + k.val, by have := k.isLt; omega⟩)
      = ((∑ c : Fin 128, ab (ix3 (0 : Fin 1) c n) * ∑ d : Fin 128, hb (ix3 (0 : Fin 1) c d) * w1 (ix2 d k))
          + (∑ c : Fin 128, ab (ix3 (0 : Fin 1) c n)) * ((∑ d : Fin 128, hb (ix3 (0 : Fin 1) n d) * w2 (ix2 d k)) + bm (ix1 k)))
        + ∑ d : Fin 128, esum (ix2 n d) * w3 (ix2 d k) := by
  unfold k0_pay4
  refine (concatenate_pair_apply_right (t := S128x256) (s₁ := S128x128) (s₂ := S128x128) 1 _ _ _
    (ix2 n ⟨128 + k.val, by have := k.isLt; omega⟩) rfl rfl (ix2 n k)
    (fun b hb' => by match b with | ⟨0, _⟩ => rfl | ⟨1, _⟩ => exact absurd rfl hb')
    (by show k.val + 128 = 128 + k.val; omega)).trans ?_
  show (matmul _ none _ _ _ (ix2 n k) + broadcastTo S128x128 _ _ (ix2 n k) * (matmul _ none _ _ _ (ix2 n k) + broadcastTo S128x128 _ _ (ix2 n k)))
      + matmul _ none _ _ _ (ix2 n k) = _
  rw [mm128, mm128, mm128, broadcastTo_a1_ab_apply, shapeCast_a_a1_apply]
  refine congrArg₂ (· + ·) (congrArg₂ (· + ·) ?_ (congrArg₂ (· * ·) ?_ (congrArg₂ (· + ·) (rows_apply hb w2 n k) ?_))) ?_
  · exact Finset.sum_congr rfl fun c _ => congrArg₂ (· * ·) (adjT_apply ab n c) ((mm128 _ _ c k).trans (rows_apply hb w1 c k))
  · exact (rowSum_apply _ _ reduces_S128x128_S128 _ _ n).trans (Finset.sum_congr rfl fun c _ => adjT_apply ab n c)
  · exact (broadcastTo_1b_ab_apply _ _ n k).trans (shapeCast_a_1a_apply bm _ 0 k)
  · exact Finset.sum_congr rfl fun d _ => congrArg (esum (ix2 n d) * ·) (congrFun (shapeCast_self w3 _) _)

end

/-! ## The stored block -/

/-- The update: the joined tile times the transposed update weight, plus the bias row. -/
theorem out_apply (cat : FVec Ideal S128x256 .f32) (wuT : Vec Ideal S256x128 .f32) (bu : Vec Ideal S128 .f32)
    (u : Fin 1) (n k : Fin 128) :
    k0_pay1 (F := Ideal) cat wuT bu (ix3 u n k) = (∑ d : Fin 256, cat (ix2 n d) * wuT (ix2 d k)) + bu (ix1 k) := by
  unfold k0_pay1
  refine (shapeCast_ab_1ab_apply _ _ u n k).trans ?_
  show matmul _ none _ _ _ (ix2 n k) + broadcastTo S128x128 _ _ (ix2 n k) = _
  rw [mm256]
  refine congrArg₂ (· + ·) ?_ ((broadcastTo_1b_ab_apply _ _ n k).trans (shapeCast_a_1a_apply bu _ 0 k))
  exact Finset.sum_congr rfl fun d _ => congrArg (cat (ix2 n d) * ·) (congrFun (shapeCast_self wuT _) _)

end Cert.KernelIdeal.Body

end
-- ==== Proof.KernelPiece.lean ====
/-
  What one grid point leaves in the output's staging buffer.

  The body makes one store, of the whole block, so the buffer ends holding that store's value: the update applied to the joined
  tile. The joined tile is built from the blocks the body loads — the state, the adjacency and the bias blocks whole, the
  transposed message weight in its three 128-row bands — and from the tile the sender loop carries out.

  The loop's carried tile is a recursion over the chunks: it starts at the zero tile, and chunk `n` adds to it what the chunk
  step makes of the 32 sender rows `32 n … 32 n + 31` of the edge block and of the adjacency block. The loop has four chunks.
-/
import proofs.«168689_j4140348474008_2_alg».proof.Proof.Gen.KernelIdeal.Frame
import Idealize.ShloMosaic.Lib.Pipeline.Value

set_option maxRecDepth 16384

noncomputable section

namespace Cert.KernelIdeal.Piece

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- All-zero offsets, however spelt. -/
theorem hz1 : (![0] : Fin S128.rank → Nat) = fun _ => 0 := funext fun a => by fin_cases a <;> rfl
theorem hz2 : (![0, 0] : Fin S256x128.rank → Nat) = fun _ => 0 := funext fun a => by fin_cases a <;> rfl
theorem hz3 : (![0, 0, 0] : Fin S1x128x128.rank → Nat) = fun _ => 0 := funext fun a => by fin_cases a <;> rfl

/-- The sender loop runs four chunks. -/
theorem trips_eq : k0_t1_loop.trips = 4 := by decide

/-- The tile the sender loop carries after `n` chunks, over the staged edge block `x0` and adjacency block `x1`. -/
def carried (x0 : Vec F S1x128x128x128 .f32) (x1 : Vec F S1x128x128 .f32) : ℕ → FVec F S128x128 .f32
  | 0 => k0_pay2
  | n + 1 =>
    if h : n < k0_t1_loop.trips then
      k0_pay3 (carried x0 x1 n)
        (View.ld x0 (Rect.unit (s := S1x128x128x128) (k0_off1 ⟨n, h⟩) S1x32x128x128.size (k0_off1_inb ⟨n, h⟩)))
        (View.ld x1 (Rect.unit (s := S1x128x128) (k0_off2 ⟨n, h⟩) S1x32x128.size (k0_off2_inb ⟨n, h⟩)))
    else carried x0 x1 n

/-- The run's own recursion for the carried tile, over whole staging buffers holding `x0` and `x1`, is that recursion. -/
theorem st_eq_carried (𝒱 : Variants) (c : Dev nD) (bd : Option 𝒱.V) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole)
    (x0 : Vec F S1x128x128x128 .f32) (x1 : Vec F S1x128x128 .f32) (n : ℕ) :
    st_k0_t1 (F := F) 𝒱 c bd i arg1 harg1 arg2 harg2 arg3 harg3 arg4 harg4 arg5 harg5 arg6 harg6 arg7 harg7 arg8 harg8 (harg1.unread x0) (harg2.unread x1) k0_pay2 n = carried x0 x1 n := by
  induction n with
  | zero => rfl
  | succ n ih =>
    rw [st_k0_t1.eq_2, carried]
    unfold st_k0_t1Step
    by_cases h : n < k0_t1_loop.trips
    · rw [dif_pos h, dif_pos h, ih]
      unfold tripR_k0_t1 trip_k0_t1
      dsimp only
      simp only [View.readAt_eq_ld, harg1.read_unread, harg2.read_unread]
    · rw [dif_neg h, dif_neg h, ih]

/-- WHAT THE POINT LEAVES: the update of the joined tile, the joined tile over the loaded blocks and the loop's tile. -/
theorem out_eq (c : Dev nD) (i : grid0.Coords) (arg1 : Memref sig .tc .vmem S1x128x128x128 .f32) (harg1 : arg1.IsWhole) (arg2 : Memref sig .tc .vmem S1x128x128 .f32) (harg2 : arg2.IsWhole) (arg3 : Memref sig .tc .vmem S1x128x128 .f32) (harg3 : arg3.IsWhole) (arg4 : Memref sig .tc .vmem S384x128 .f32) (harg4 : arg4.IsWhole) (arg5 : Memref sig .tc .vmem S128 .f32) (harg5 : arg5.IsWhole) (arg6 : Memref sig .tc .vmem S256x128 .f32) (harg6 : arg6.IsWhole) (arg7 : Memref sig .tc .vmem S128 .f32) (harg7 : arg7.IsWhole) (arg8 : Memref sig .tc .vmem S1x128x128 .f32) (harg8 : arg8.IsWhole)
    (x0 : Vec F S1x128x128x128 .f32) (x1 : Vec F S1x128x128 .f32) (x2 : Vec F S1x128x128 .f32) (x3 : Vec F S384x128 .f32) (x4 : Vec F S128 .f32) (x5 : Vec F S256x128 .f32) (x6 : Vec F S128 .f32) :
    out0_A_7 c i arg1 harg1 arg2 harg2 arg3 harg3 arg4 harg4 arg5 harg5 arg6 harg6 arg7 harg7 arg8 harg8 x0 x1 x2 x3 x4 x5 x6
      = k0_pay1
          (k0_pay4 x2
            (View.ld x3 (Rect.unit (s := S384x128) ![0, 0] S128x128.size inb_S384x128_S128x128_0_0))
            (View.ld x3 (Rect.unit (s := S384x128) ![128, 0] S128x128.size inb_S384x128_S128x128_128_0))
            (View.ld x3 (Rect.unit (s := S384x128) ![256, 0] S128x128.size inb_S384x128_S128x128_256_0))
            x1 x4 (carried x0 x1 k0_t1_loop.trips))
          x5 x6 := by
  unfold out0_A_7
  rw [View.read_writes_eq_canon _ _ _ (cover0_A_7 c i arg1 harg1 arg2 harg2 arg3 harg3 arg4 harg4 arg5 harg5 arg6 harg6 arg7 harg7 arg8 harg8 x0 x1 x2 x3 x4 x5 x6)]
  unfold kernelRun0_A
  dsimp only
  rw [View.canon_unit_zero (S := S1x128x128) hz3]
  unfold kernelRun0_A.sl.r
  simp only [View.readAt_eq_ld, harg1.read_unread, harg2.read_unread, harg3.read_unread, harg4.read_unread, harg5.read_unread,
    harg6.read_unread, harg7.read_unread, View.ld_unit_zero (S := S1x128x128) hz3, View.ld_unit_zero (S := S128) hz1,
    View.ld_unit_zero (S := S256x128) hz2, st_eq_carried]

end Cert.KernelIdeal.Piece

end
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.KernelPoint.lean ====
/-
  One grid point's block is the layer's block for that batch entry.

  The point of batch entry `b` sees the `b`-th blocks of the state, adjacency and edge arrays, and the weights whole — the
  message weight and the update weight transposed. Read entry by entry, the block it stores is the update weight applied to
  the state row joined with the message in its regrouped order (the masked sum over senders taken before the projections),
  plus the update bias: the regrouped layer at `(b, n, k)`.

  The sender loop's four chunks of 32 senders add up to the sum over all 128 senders: the carried tile starts at zero and
  a finite sum may be taken block by block.
-/
import proofs.«168689_j4140348474008_2_alg».proof.Proof.KernelBody
import proofs.«168689_j4140348474008_2_alg».proof.Proof.KernelPiece
import proofs.«168689_j4140348474008_2_alg».proof.Proof.Spec
import proofs.«168689_j4140348474008_2_alg».proof.Proof.LibTileSum

noncomputable section

open scoped BigOperators

namespace Cert.KernelIdeal.Point

open Cert.KernelIdeal Cert.KernelIdeal.Gen Cert.KernelIdeal.Body Cert.KernelIdeal.Piece Cert.MsgPass
open Idealize.ShloMosaic Idealize.ShloMosaic.ValueIdx

/-! ## The loads through rectangles, at an index -/

/-- A 128-row band of the `[384,128]` block starting at row `off`, at `(d, k)`: the block at `(off + d, k)`. -/
theorem ld_band (x3 : Vec Ideal S384x128 .f32) (off : ℕ) (hoff : off + 128 ≤ 384)
    (inb : ∀ a, (![off, 0] : Fin S384x128.rank → ℕ) a + S128x128.size a ≤ S384x128.size a) (d k : Fin 128) :
    View.ld x3 (Rect.unit (s := S384x128) ![off, 0] S128x128.size inb) (ix2 d k) = x3 (ix2 ⟨off + d.val, by omega⟩ k) :=
  congrArg x3 (funext fun a => Fin.ext (by
    match a with
    | ⟨0, _⟩ => show off + 1 * d.val = off + d.val; omega
    | ⟨1, _⟩ => show 0 + 1 * k.val = k.val; omega))

/-- Chunk `c`'s 32 sender rows of the edge block: row `r` of the chunk is sender `32 c + r`. -/
theorem ld_edge (x0 : Vec Ideal S1x128x128x128 .f32) (c : Fin k0_t1_loop.trips) (r : Fin 32) (j d : Fin 128)
    (hm : 32 * c.val + r.val < 128) :
    View.ld x0 (Rect.unit (s := S1x128x128x128) (k0_off1 c) S1x32x128x128.size (k0_off1_inb c)) (ix4 (0 : Fin 1) r j d)
      = x0 (ix4 (0 : Fin 1) ⟨32 * c.val + r.val, hm⟩ j d) := by
  have e := k0_off1_eq c
  refine congrArg x0 (funext fun a => Fin.ext ?_)
  match a with
  | ⟨0, _⟩ => show k0_off1 c 0 + 1 * 0 = 0; rw [e]; rfl
  | ⟨1, _⟩ => show k0_off1 c 1 + 1 * r.val = 32 * c.val + r.val; rw [e]; show 32 * c.val + 1 * r.val = _; omega
  | ⟨2, _⟩ => show k0_off1 c 2 + 1 * j.val = j.val; rw [e]; show 0 + 1 * j.val = _; omega
  | ⟨3, _⟩ => show k0_off1 c 3 + 1 * d.val = d.val; rw [e]; show 0 + 1 * d.val = _; omega

/-- Chunk `c`'s 32 sender rows of the adjacency block. -/
theorem ld_adj (x1 : Vec Ideal S1x128x128 .f32) (c : Fin k0_t1_loop.trips) (r : Fin 32) (j : Fin 128)
    (hm : 32 * c.val + r.val < 128) :
    View.ld x1 (Rect.unit (s := S1x128x128) (k0_off2 c) S1x32x128.size (k0_off2_inb c)) (ix3 (0 : Fin 1) r j)
      = x1 (ix3 (0 : Fin 1) ⟨32 * c.val + r.val, hm⟩ j) := by
  have e := k0_off2_eq c
  refine congrArg x1 (funext fun a => Fin.ext ?_)
  match a with
  | ⟨0, _⟩ => show k0_off2 c 0 + 1 * 0 = 0; rw [e]; rfl
  | ⟨1, _⟩ => show k0_off2 c 1 + 1 * r.val = 32 * c.val + r.val; rw [e]; show 32 * c.val + 1 * r.val = _; omega
  | ⟨2, _⟩ => show k0_off2 c 2 + 1 * j.val = j.val; rw [e]; show 0 + 1 * j.val = _; omega

/-! ## The sender loop sums over all senders -/

/-- Sender `m`'s masked edge entry at (receiver `j`, feature `d`); zero past the block. -/
def term (x0 : Vec Ideal S1x128x128x128 .f32) (x1 : Vec Ideal S1x128x128 .f32) (j d : Fin 128) (m : ℕ) : EReal :=
  if h : m < 128 then x0 (ix4 (0 : Fin 1) ⟨m, h⟩ j d) * x1 (ix3 (0 : Fin 1) ⟨m, h⟩ j) else 0

/-- After `n` chunks the carried tile holds the sum over the first `n` chunks of their 32 masked edge entries. -/
theorem carried_apply (x0 : Vec Ideal S1x128x128x128 .f32) (x1 : Vec Ideal S1x128x128 .f32) (j d : Fin 128) :
    ∀ n, n ≤ 4 → carried (F := Ideal) x0 x1 n (ix2 j d)
      = ∑ c ∈ Finset.range n, ∑ r : Fin 32, term x0 x1 j d (32 * c + r.val)
  | 0, _ => by
    show k0_pay2 (F := Ideal) (ix2 j d) = _
    rw [start_apply, Finset.range_zero, Finset.sum_empty]
  | n + 1, hn => by
    have htr : n < k0_t1_loop.trips := by rw [trips_eq]; omega
    rw [carried, dif_pos htr, chunk_apply, carried_apply x0 x1 j d n (by omega), Finset.sum_range_succ]
    refine congrArg (_ + ·) (Finset.sum_congr rfl fun r _ => ?_)
    have hm : 32 * n + r.val < 128 := by have := r.isLt; omega
    rw [term, dif_pos hm]
    exact congrArg₂ (· * ·) (ld_edge x0 ⟨n, htr⟩ r j d hm) (ld_adj x1 ⟨n, htr⟩ r j hm)

/-- The loop's tile: the masked edge entries summed over all 128 senders. -/
theorem carried_total (x0 : Vec Ideal S1x128x128x128 .f32) (x1 : Vec Ideal S1x128x128 .f32) (j d : Fin 128) :
    carried (F := Ideal) x0 x1 k0_t1_loop.trips (ix2 j d)
      = ∑ i : Fin 128, x0 (ix4 (0 : Fin 1) i j d) * x1 (ix3 (0 : Fin 1) i j) := by
  rw [trips_eq, carried_apply x0 x1 j d 4 le_rfl, Finset.sum_range,
    Cert.LibTileSum.sum_blocks (A := 4) (B := 32) (N := 128) rfl
      (fun i : Fin 128 => x0 (ix4 (0 : Fin 1) i j d) * x1 (ix3 (0 : Fin 1) i j))]
  refine Finset.sum_congr rfl fun c _ => Finset.sum_congr rfl fun r _ => ?_
  have hm : 32 * c.val + r.val < 128 := by have := c.isLt; have := r.isLt; omega
  rw [term, dif_pos hm]
  rfl

/-! ## The point's block -/

/-- THE POINT'S BLOCK, over blocks that read the arrays at batch entry `b` (the two weights transposed). -/
theorem point_eq (h adj : NodeArr.Idx → EReal) (e : EdgeArr.Idx → EReal) (wm : MsgW.Idx → EReal) (bm : Bias.Idx → EReal)
    (wu : UpdW.Idx → EReal) (bu : Bias.Idx → EReal) (b : Fin 16)
    (x0 : Vec Ideal S1x128x128x128 .f32) (x1 x2 : Vec Ideal S1x128x128 .f32) (x3 : Vec Ideal S384x128 .f32)
    (x4 : Vec Ideal S128 .f32) (x5 : Vec Ideal S256x128 .f32) (x6 : Vec Ideal S128 .f32)
    (hx0 : ∀ i j d : Fin 128, x0 (ix4 (0 : Fin 1) i j d) = e (ix4 b i j d))
    (hx1 : ∀ i j : Fin 128, x1 (ix3 (0 : Fin 1) i j) = adj (ix3 b i j))
    (hx2 : ∀ n d : Fin 128, x2 (ix3 (0 : Fin 1) n d) = h (ix3 b n d))
    (hx3 : ∀ (r : Fin 384) (k : Fin 128), x3 (ix2 r k) = wm (ix2 k r))
    (hx4 : ∀ k : Fin 128, x4 (ix1 k) = bm (ix1 k))
    (hx5 : ∀ (d : Fin 256) (k : Fin 128), x5 (ix2 d k) = wu (ix2 k d))
    (hx6 : ∀ k : Fin 128, x6 (ix1 k) = bu (ix1 k))
    (u : Fin 1) (n k : Fin 128) :
    k0_pay1 (F := Ideal)
        (k0_pay4 x2
          (View.ld x3 (Rect.unit (s := S384x128) ![0, 0] S128x128.size inb_S384x128_S128x128_0_0))
          (View.ld x3 (Rect.unit (s := S384x128) ![128, 0] S128x128.size inb_S384x128_S128x128_128_0))
          (View.ld x3 (Rect.unit (s := S384x128) ![256, 0] S128x128.size inb_S384x128_S128x128_256_0))
          x1 x4 (carried x0 x1 k0_t1_loop.trips))
        x5 x6 (ix3 u n k)
      = layerRegrouped h adj e wm bm wu bu (ix3 b n k) := by
  rw [out_apply]
  show _ = (∑ d : Fin 256, joined h (msgRegrouped h adj e wm bm) b n d * wu (ix2 k d)) + bu (ix1 k)
  refine congrArg₂ (· + ·) (Finset.sum_congr rfl fun d _ => congrArg₂ (· * ·) ?_ (hx5 d k)) (hx6 k)
  unfold joined
  by_cases hd : d.val < 128
  · rw [dif_pos hd]
    exact (joined_state x2 x1 _ _ _ x4 _ n ⟨d.val, hd⟩).trans (hx2 n _)
  · rw [dif_neg hd]
    have hk' : d.val - 128 < 128 := by have := d.isLt; omega
    have hdk : (ix2 n d : S128x256.Idx) = ix2 n ⟨128 + (⟨d.val - 128, hk'⟩ : Fin 128).val, by have := d.isLt; omega⟩ :=
      congrArg (ix2 n) (Fin.ext (by show d.val = 128 + (d.val - 128); omega))
    refine (congrArg (k0_pay4 (F := Ideal) x2 _ _ _ x1 x4 _) hdk).trans ((joined_msg x2 x1 _ _ _ x4 _ n ⟨d.val - 128, hk'⟩).trans ?_)
    unfold msgRegrouped proj
    refine congrArg₂ (· + ·) (congrArg₂ (· + ·) ?_ (congrArg₂ (· * ·) ?_ (congrArg₂ (· + ·) ?_ (hx4 _)))) ?_
    · exact Finset.sum_congr rfl fun c _ => congrArg₂ (· * ·) (hx1 c n) (Finset.sum_congr rfl fun d' _ =>
        congrArg₂ (· * ·) (hx2 c d') ((ld_band x3 0 (by omega) _ d' _).trans (hx3 _ _)))
    · exact Finset.sum_congr rfl fun c _ => hx1 c n
    · exact Finset.sum_congr rfl fun d' _ => congrArg₂ (· * ·) (hx2 n d') ((ld_band x3 128 (by omega) _ d' _).trans (hx3 _ _))
    · exact Finset.sum_congr rfl fun d' _ => congrArg₂ (· * ·)
        ((carried_total x0 x1 n d').trans (Finset.sum_congr rfl fun i _ => congrArg₂ (· * ·) (hx0 i n d') (hx1 i n)))
        ((ld_band x3 256 (by omega) _ d' _).trans (hx3 _ _))

end Cert.KernelIdeal.Point

end
-- ==== Proof.KernelArray.lean ====
/-
  From the points' blocks to the whole result array.

  The grid has 16 points, one per batch entry. Point `t` reads block `t` of the state, adjacency and edge arrays — entry
  `(0, …)` of the block is entry `(t, …)` of the array — and the two weights, which the host transposed before the launch,
  whole; it writes back block `t` of the result. So what it writes back is block `t` of the regrouped layer of the argument
  arrays. The 16 blocks tile the result array (index `(b, n, k)` lies in block `b`), hence the array ends holding the
  regrouped layer everywhere.
-/
import proofs.«168689_j4140348474008_2_alg».proof.Proof.Gen.KernelIdeal.Value
import proofs.«168689_j4140348474008_2_alg».proof.Proof.KernelPoint
import Idealize.ShloMosaic.Lib.StableHlo.Run

set_option maxRecDepth 16384

noncomputable section

open scoped BigOperators

namespace Cert.KernelIdeal.Arr

open Cert.KernelIdeal Cert.KernelIdeal.Gen Cert.KernelIdeal.Piece Cert.KernelIdeal.Point Cert.MsgPass
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 16 points: the batched windows sit at block `t` of their first axis, the
    weights and biases at block 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = t.val ∧ win0_7.index t (1 : Fin 3) = 0 ∧ win0_7.index t (2 : Fin 3) = 0
    ∧ t.val < 16 :=
  (by decide +kernel : ∀ t : Fin grid0.N, _)

/-- The transposed message weight, as the region finds it. -/
theorem V_wmT (c : Dev nD) :
    (V m c main_v0 : S384x128.Idx → EReal)
      = transpose S384x128 [1, 0] (m ((c : Thread nD τ).loc main_arg3)) transposes_S128x384_S384x128_1_0 := by
  dsimp only [Gen.V, Gen.hostOps0]; after_results

/-- The transposed update weight, as the region finds it. -/
theorem V_wuT (c : Dev nD) :
    (V m c main_v1 : S256x128.Idx → EReal)
      = transpose S256x128 [1, 0] (m ((c : Thread nD τ).loc main_arg5)) transposes_S128x256_S256x128_1_0 := by
  dsimp only [Gen.V, Gen.hostOps0]; after_results

/-- The regrouped layer of the argument arrays. -/
abbrev G (c : Dev nD) : S16x128x128.Idx → EReal :=
  layerRegrouped (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The blocks a point reads -/

section
variable (c : Dev nD) (t : Fin cfg0.N) (ht : t.val < 16)

/-- The edge block at point `t` is batch entry `t` of the edge array. -/
theorem blk_e (i j d : Fin 128) :
    iblk m c 0 t (ix4 (0 : Fin 1) i j d) = m ((c : Thread nD τ).loc main_arg2) (ix4 (⟨t.val, ht⟩ : Fin 16) i j d) := by
  obtain ⟨e00, e01, e02, e03, -⟩ := idx_facts t
  show V m c main_arg2 (((cfg0.win 0).blk t).view.emb (ix4 (0 : Fin 1) i j d)) = _
  rw [V_main_arg2]
  refine congrArg _ (funext fun a => Fin.ext ?_)
  match a with
  | ⟨0, _⟩ => show win0_0.index t (0 : Fin 4) * 1 + 1 * 0 = t.val; omega
  | ⟨1, _⟩ => show win0_0.index t (1 : Fin 4) * 128 + 1 * i.val = i.val; omega
  | ⟨2, _⟩ => show win0_0.index t (2 : Fin 4) * 128 + 1 * j.val = j.val; omega
  | ⟨3, _⟩ => show win0_0.index t (3 : Fin 4) * 128 + 1 * d.val = d.val; omega

/-- The adjacency block at point `t` is batch entry `t` of the adjacency array. -/
theorem blk_adj (i j : Fin 128) :
    iblk m c 1 t (ix3 (0 : Fin 1) i j) = m ((c : Thread nD τ).loc main_arg1) (ix3 (⟨t.val, ht⟩ : Fin 16) i j) := by
  obtain ⟨-, -, -, -, e10, e11, e12, -⟩ := idx_facts t
  show V m c main_arg1 (((cfg0.win 1).blk t).view.emb (ix3 (0 : Fin 1) i j)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 128 + 1 * i.val = i.val; omega
  | ⟨2, _⟩ => show win0_1.index t (2 : Fin 3) * 128 + 1 * j.val = j.val; omega

/-- The state block at point `t` is batch entry `t` of the state array. -/
theorem blk_h (n d : Fin 128) :
    iblk m c 2 t (ix3 (0 : Fin 1) n d) = m ((c : Thread nD τ).loc main_arg0) (ix3 (⟨t.val, ht⟩ : Fin 16) n d) := by
  obtain ⟨-, -, -, -, -, -, -, e20, e21, e22, -⟩ := idx_facts t
  show V m c main_arg0 (((cfg0.win 2).blk t).view.emb (ix3 (0 : Fin 1) n d)) = _
  rw [V_main_arg0]
  refine congrArg _ (funext fun a => Fin.ext ?_)
  match a with
  | ⟨0, _⟩ => show win0_2.index t (0 : Fin 3) * 1 + 1 * 0 = t.val; omega
  | ⟨1, _⟩ => show win0_2.index t (1 : Fin 3) * 128 + 1 * n.val = n.val; omega
  | ⟨2, _⟩ => show win0_2.index t (2 : Fin 3) * 128 + 1 * d.val = d.val; omega

/-- The message-weight block is the message weight transposed. -/
theorem blk_wm (r : Fin 384) (k : Fin 128) :
    iblk m c 3 t (ix2 r k) = m ((c : Thread nD τ).loc main_arg3) (ix2 k r) := by
  obtain ⟨-, -, -, -, -, -, -, -, -, -, e30, e31, -⟩ := idx_facts t
  show V m c main_v0 (((cfg0.win 3).blk t).view.emb (ix2 r k)) = _
  rw [V_wmT]
  have he : ((cfg0.win 3).blk t).view.emb (ix2 r k) = (ix2 r k : S384x128.Idx) := funext fun a => Fin.ext (by
    match a with
    | ⟨0, _⟩ => show win0_3.index t (0 : Fin 2) * 384 + 1 * r.val = r.val; omega
    | ⟨1, _⟩ => show win0_3.index t (1 : Fin 2) * 128 + 1 * k.val = k.val; omega)
  rw [he]
  exact transpose_ix2_apply _ _ r k

/-- The message-bias block is the message bias. -/
theorem blk_bm (k : Fin 128) : iblk m c 4 t (ix1 k) = m ((c : Thread nD τ).loc main_arg4) (ix1 k) := by
  obtain ⟨-, -, -, -, -, -, -, -, -, -, -, -, e40, -⟩ := idx_facts t
  show V m c main_arg4 (((cfg0.win 4).blk t).view.emb (ix1 k)) = _
  rw [V_main_arg4]
  refine congrArg _ (funext fun a => Fin.ext ?_)
  match a with
  | ⟨0, _⟩ => show win0_4.index t (0 : Fin 1) * 128 + 1 * k.val = k.val; omega

/-- The update-weight block is the update weight transposed. -/
theorem blk_wu (d : Fin 256) (k : Fin 128) :
    iblk m c 5 t (ix2 d k) = m ((c : Thread nD τ).loc main_arg5) (ix2 k d) := by
  obtain ⟨-, -, -, -, -, -, -, -, -, -, -, -, -, e50, e51, -⟩ := idx_facts t
  show V m c main_v1 (((cfg0.win 5).blk t).view.emb (ix2 d k)) = _
  rw [V_wuT]
  have he : ((cfg0.win 5).blk t).view.emb (ix2 d k) = (ix2 d k : S256x128.Idx) := funext fun a => Fin.ext (by
    match a with
    | ⟨0, _⟩ => show win0_5.index t (0 : Fin 2) * 256 + 1 * d.val = d.val; omega
    | ⟨1, _⟩ => show win0_5.index t (1 : Fin 2) * 128 + 1 * k.val = k.val; omega)
  rw [he]
  exact transpose_ix2_apply _ _ d k

/-- The update-bias block is the update bias. -/
theorem blk_bu (k : Fin 128) : iblk m c 6 t (ix1 k) = m ((c : Thread nD τ).loc main_arg6) (ix1 k) := by
  obtain ⟨-, -, -, -, -, -, -, -, -, -, -, -, -, -, -, e60, -⟩ := idx_facts t
  show V m c main_arg6 (((cfg0.win 6).blk t).view.emb (ix1 k)) = _
  rw [V_main_arg6]
  refine congrArg _ (funext fun a => Fin.ext ?_)
  match a with
  | ⟨0, _⟩ => show win0_6.index t (0 : Fin 1) * 128 + 1 * k.val = k.val; omega

end

/-! ## What a point writes back, and the array -/

/-- WHAT POINT `t` WRITES BACK is block `t` of the regrouped layer of the argument arrays. -/
theorem flushed_eq (c : Dev nD) (t : Fin cfg0.N) :
    (dats m 0 c).flushed 7 t = ((cfg0.win 7).blk t).view.read (Elt Ideal) (G m c) := by
  rw [Value.flushed7_A, Piece.out_eq]
  obtain ⟨-, -, -, -, -, -, -, -, -, -, -, -, -, -, -, -, e70, e71, e72, ht⟩ := idx_facts t
  funext y
  obtain ⟨u, n, k, rfl⟩ : ∃ (u : Fin 1) (n k : Fin 128), y = ix3 u n k := ⟨y 0, y 1, y 2, eq_ix3 y⟩
  have hu : u.val = 0 := by omega
  have hemb : ((cfg0.win 7).blk t).view.emb (ix3 u n k) = (ix3 (⟨t.val, ht⟩ : Fin 16) n k : S16x128x128.Idx) :=
    funext fun a => Fin.ext (by
      match a with
      | ⟨0, _⟩ => show win0_7.index t (0 : Fin 3) * 1 + 1 * u.val = t.val; omega
      | ⟨1, _⟩ => show win0_7.index t (1 : Fin 3) * 128 + 1 * n.val = n.val; omega
      | ⟨2, _⟩ => show win0_7.index t (2 : Fin 3) * 128 + 1 * k.val = k.val; omega)
  rw [View.read_apply, hemb]
  exact point_eq (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (⟨t.val, ht⟩ : Fin 16)
    (iblk m c 0 t) (iblk m c 1 t) (iblk m c 2 t) (iblk m c 3 t) (iblk m c 4 t) (iblk m c 5 t) (iblk m c 6 t)
    (blk_e m c t ht) (blk_adj m c t ht) (blk_h m c t ht) (blk_wm m c t) (blk_bm m c t) (blk_wu m c t) (blk_bu m c t) u n k

/-- An index of the result array is in point `t`'s block iff each coordinate is in the block's range on its axis. -/
theorem mem_blk (t : Fin cfg0.N) (i : S16x128x128.Idx) :
    i ∈ ((cfg0.win 7).blk t).view.set ↔ ∀ a : Fin 3, win0_7.index t a * S1x128x128.size a ≤ (i a).val
      ∧ (i a).val < win0_7.index t a * S1x128x128.size a + S1x128x128.size a := by
  show i ∈ ((View.whole main_v2).slice (win0_7.rect t)).set ↔ _
  rw [View.set_slice_whole, Rect.mem_set_unit]
  exact Iff.rfl

/-- Every index `(b, n, k)` of the result array is in the block point `b` writes back. -/
theorem cover (i : S16x128x128.Idx) :
    ∃ t : Fin cfg0.N, (cfg0.win 7).flush t = true ∧ i ∈ ((cfg0.win 7).blk t).view.set := by
  have hN : (i 0).val < grid0.N := by rw [N_0]; exact (i 0).isLt
  obtain ⟨-, -, -, -, -, -, -, -, -, -, -, -, -, -, -, -, e70, e71, e72, -⟩ := idx_facts ⟨(i 0).val, hN⟩
  have e70' : win0_7.index ⟨(i 0).val, hN⟩ (0 : Fin 3) = (i 0).val := e70
  refine ⟨⟨(i 0).val, hN⟩, flush0_7 _, ?_⟩
  rw [mem_blk]
  intro a
  match a with
  | ⟨0, _⟩ =>
    show win0_7.index ⟨(i 0).val, hN⟩ (0 : Fin 3) * 1 ≤ (i 0).val ∧ (i 0).val < win0_7.index ⟨(i 0).val, hN⟩ (0 : Fin 3) * 1 + 1
    omega
  | ⟨1, _⟩ =>
    show win0_7.index ⟨(i 0).val, hN⟩ (1 : Fin 3) * 128 ≤ (i 1).val ∧ (i 1).val < win0_7.index ⟨(i 0).val, hN⟩ (1 : Fin 3) * 128 + 128
    have := (i 1).isLt
    have h1 : (i 1).val < 128 := this
    omega
  | ⟨2, _⟩ =>
    show win0_7.index ⟨(i 0).val, hN⟩ (2 : Fin 3) * 128 ≤ (i 2).val ∧ (i 2).val < win0_7.index ⟨(i 0).val, hN⟩ (2 : Fin 3) * 128 + 128
    have := (i 2).isLt
    have h2 : (i 2).val < 128 := this
    omega

/-- THE RESULT ARRAY after the run is the regrouped layer of the argument arrays. -/
theorem final (c : Dev nD) : (dats m 0 c).arrAt 7 cfg0.N = G m c :=
  (dats m 0 c).arrAt_eq_of_cover 7 (G m c) (fun t _ => flushed_eq m c t) cover

/-- The run: the result holds the regrouped layer, the arguments are unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Arr

end
-- ==== Proof.RefLayer.lean ====
/-
  The reference program's result is the message-passing layer.

  The reference computes, operation by operation: the three 128-column bands of the message weight; the projections of
  the node states on the first two bands and of the edge features on the third; their sum with the message bias,
  spread over batch × sender × receiver × feature; the product with the adjacency entry; the sum over the senders,
  started from zero; the node's old state joined with that message along the feature axis; the projection of the joined
  row on the update weight; and the update bias added. Read at one index, each operation takes its operands at indices
  computed from that one, so the result at (b, n, k) is a closed formula in the seven argument arrays. That formula,
  term by term and in the same order of additions and multiplications, is the layer's.
-/
import proofs.«168689_j4140348474008_2_alg».proof.Proof.Gen.ReferenceIdeal.Read
import proofs.«168689_j4140348474008_2_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.MsgPass Idealize.ShloMosaic Idealize.ShloMosaic.ValueIdx

variable (x0 x1 : (⟨S16x128x128, .f32⟩ : BufTy).Contents (Elt Ideal)) (x2 : (⟨S16x128x128x128, .f32⟩ : BufTy).Contents (Elt Ideal))
  (x3 : (⟨S128x384, .f32⟩ : BufTy).Contents (Elt Ideal)) (x4 : (⟨S128, .f32⟩ : BufTy).Contents (Elt Ideal))
  (x5 : (⟨S128x256, .f32⟩ : BufTy).Contents (Elt Ideal)) (x6 : (⟨S128, .f32⟩ : BufTy).Contents (Elt Ideal))

/-! ## The three projections -/

/-- The sender's projection: the node states against the first band of the message weight. -/
theorem v3_ix (b : Fin 16) (i k : Fin 128) :
    val_main_v3 (F := Ideal) x0 x3 (ix3 b i k) = proj x3 0 (by omega) (fun d => x0 (ix3 b i d)) k := by
  rw [val_main_v3_apply]
  unfold proj
  refine Finset.sum_congr rfl fun d _ => ?_
  rw [val_main_v0_apply]
  refine congrArg₂ (· * ·) (congrArg x0 ?_) (congrArg x3 ?_)
  · exact funext fun a => Fin.ext (by match a with | ⟨0, _⟩ => rfl | ⟨1, _⟩ => rfl | ⟨2, _⟩ => rfl)
  · exact funext fun a => Fin.ext (by
      match a with
      | ⟨0, _⟩ => rfl
      | ⟨1, _⟩ => show d.val = 0 + d.val; omega)

/-- The receiver's projection: the node states against the second band. -/
theorem v4_ix (b : Fin 16) (j k : Fin 128) :
    val_main_v4 (F := Ideal) x0 x3 (ix3 b j k) = proj x3 128 (by omega) (fun d => x0 (ix3 b j d)) k := by
  rw [val_main_v4_apply]
  unfold proj
  refine Finset.sum_congr rfl fun d _ => ?_
  rw [val_main_v1_apply]
  refine congrArg₂ (· * ·) (congrArg x0 ?_) (congrArg x3 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The edge's projection: the edge features against the third band. -/
theorem v5_ix (b : Fin 16) (i j k : Fin 128) :
    val_main_v5 (F := Ideal) x2 x3 (ix4 b i j k) = proj x3 256 (by omega) (fun d => x2 (ix4 b i j d)) k := by
  rw [val_main_v5_apply]
  unfold proj
  refine Finset.sum_congr rfl fun d _ => ?_
  rw [val_main_v2_apply]
  refine congrArg₂ (· * ·) (congrArg x2 ?_) (congrArg x3 ?_)
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl)

/-! ## The broadcasts -/

/-- The sender's projection spread over the receivers. -/
theorem v8_ix (b : Fin 16) (i j k : Fin 128) :
    val_main_v8 (F := Ideal) x0 x3 (ix4 b i j k) = val_main_v3 (F := Ideal) x0 x3 (ix3 b i k) := by
  rw [val_main_v8_apply, val_main_v6_apply]
  exact congrArg _ (funext fun a => Fin.ext (by match a with | ⟨0, _⟩ => rfl | ⟨1, _⟩ => rfl | ⟨2, _⟩ => rfl))

/-- The receiver's projection spread over the senders. -/
theorem v9_ix (b : Fin 16) (i j k : Fin 128) :
    val_main_v9 (F := Ideal) x0 x3 (ix4 b i j k) = val_main_v4 (F := Ideal) x0 x3 (ix3 b j k) := by
  rw [val_main_v9_apply, val_main_v7_apply]
  exact congrArg _ (funext fun a => Fin.ext (by match a with | ⟨0, _⟩ => rfl | ⟨1, _⟩ => rfl | ⟨2, _⟩ => rfl))

/-- The message bias spread over batch, sender and receiver. -/
theorem v13_ix (b : Fin 16) (i j k : Fin 128) :
    val_main_v13 (F := Ideal) x4 (ix4 b i j k) = x4 (ix1 k) := by
  rw [val_main_v13_apply, val_main_v12_apply]
  exact congrArg x4 (funext fun a => Fin.ext (by match a with | ⟨0, _⟩ => rfl))

/-- The adjacency entry spread over the features. -/
theorem v16_ix (b : Fin 16) (i j k : Fin 128) :
    val_main_v16 (F := Ideal) x1 (ix4 b i j k) = x1 (ix3 b i j) := by
  rw [val_main_v16_apply, val_main_v15_apply]
  exact congrArg x1 (funext fun a => Fin.ext (by match a with | ⟨0, _⟩ => rfl | ⟨1, _⟩ => rfl | ⟨2, _⟩ => rfl))

/-- The update bias spread over batch and node. -/
theorem v22_ix (b : Fin 16) (n k : Fin 128) :
    val_main_v22 (F := Ideal) x6 (ix3 b n k) = x6 (ix1 k) := by
  rw [val_main_v22_apply, val_main_v21_apply]
  exact congrArg x6 (funext fun a => Fin.ext (by match a with | ⟨0, _⟩ => rfl))

/-! ## The message -/

/-- One sender's masked contribution. -/
theorem v17_ix (b : Fin 16) (i j k : Fin 128) :
    val_main_v17 (F := Ideal) x0 x1 x2 x3 x4 (ix4 b i j k)
      = (((proj x3 0 (by omega) (fun d => x0 (ix3 b i d)) k + proj x3 128 (by omega) (fun d => x0 (ix3 b j d)) k)
          + proj x3 256 (by omega) (fun d => x2 (ix4 b i j d)) k) + x4 (ix1 k)) * x1 (ix3 b i j) := by
  rw [val_main_v17_apply, val_main_v14_apply, val_main_v11_apply, val_main_v10_apply,
    v8_ix, v9_ix, v3_ix, v4_ix, v5_ix, v13_ix, v16_ix]
  rfl

/-- The sum over the senders, started from zero, is the message. -/
theorem v18_ix (b : Fin 16) (j k : Fin 128) :
    val_main_v18 (F := Ideal) x0 x1 x2 x3 x4 (ix3 b j k) = msg x0 x1 x2 x3 x4 b j k := by
  rw [val_main_v18_apply, val_main_cst_apply]
  refine (congrArg (· + _) Ideal.ofBits_zero_f32).trans ?_
  rw [zero_add]
  unfold msg
  refine Finset.sum_congr rfl fun i _ => ?_
  refine Eq.trans (congrArg _ ?_) (v17_ix x0 x1 x2 x3 x4 b i j k)
  exact funext fun a => Fin.ext (by match a with | ⟨0, _⟩ => rfl | ⟨1, _⟩ => rfl | ⟨2, _⟩ => rfl | ⟨3, _⟩ => rfl)

/-! ## The joined row -/

/-- The old state joined with the message, feature by feature. -/
theorem v19_ix (b : Fin 16) (n : Fin 128) (d : Fin 256) :
    val_main_v19 (F := Ideal) x0 x1 x2 x3 x4 (ix3 b n d) = joined x0 (msg x0 x1 x2 x3 x4) b n d := by
  unfold joined val_main_v19
  by_cases hd : d.val < 128
  · rw [dif_pos hd]
    exact concatenate_pair_apply_left (t := S16x128x256) (s₁ := S16x128x128) (s₂ := S16x128x128) 2 x0
      (val_main_v18 (F := Ideal) x0 x1 x2 x3 x4) _ (ix3 b n d) rfl (ix3 b n (⟨d.val, hd⟩ : Fin 128)) (fun a => by
        match a with | ⟨0, _⟩ => rfl | ⟨1, _⟩ => rfl | ⟨2, _⟩ => rfl)
  · rw [dif_neg hd, ← v18_ix]
    have hlt : d.val - 128 < 128 := by have := d.isLt; omega
    exact concatenate_pair_apply_right (t := S16x128x256) (s₁ := S16x128x128) (s₂ := S16x128x128) 2 x0
      (val_main_v18 (F := Ideal) x0 x1 x2 x3 x4) _ (ix3 b n d) rfl rfl (ix3 b n (⟨d.val - 128, hlt⟩ : Fin 128))
      (fun a ha => by
        match a, ha with
        | ⟨0, _⟩, _ => rfl
        | ⟨1, _⟩, _ => rfl
        | ⟨2, _⟩, ha => exact absurd rfl ha)
      (by show d.val - 128 + 128 = d.val; omega)

/-! ## The result -/

/-- The reference's result is the layer. -/
theorem result_eq :
    val_main_v23 (F := Ideal) x0 x1 x2 x3 x4 x5 x6 = layer x0 x1 x2 x3 x4 x5 x6 := by
  funext y
  obtain ⟨b, n, k, rfl⟩ : ∃ (b : Fin 16) (n k : Fin 128), y = ix3 b n k := ⟨y 0, y 1, y 2, eq_ix3 y⟩
  rw [val_main_v23_apply, val_main_v20_apply, v22_ix]
  unfold layer layerOf
  refine congrArg (· + _) (Finset.sum_congr rfl fun d _ => ?_)
  refine congrArg₂ (· * ·) ?_ (congrArg x5 ?_)
  · refine Eq.trans (congrArg _ ?_) (v19_ix x0 x1 x2 x3 x4 b n d)
    exact funext fun a => Fin.ext (by match a with | ⟨0, _⟩ => rfl | ⟨1, _⟩ => rfl | ⟨2, _⟩ => rfl)
  · exact funext fun a => Fin.ext (by match a with | ⟨0, _⟩ => rfl | ⟨1, _⟩ => rfl)

end Cert.ReferenceIdeal.RefValue

end
-- ==== Proof.Finite.lean ====
/-
  Under the precondition every input entry is a real number.

  The precondition tests, for each of the seven float argument arrays, that |x| < +∞ at every entry, and takes the
  conjunction of the seven answers. At the extended reals |x| is max x (-x) and +∞ is the top element, so an entry that
  passes the test is neither +∞ (then |x| = +∞) nor -∞ (then |x| = +∞ again): it is a real number. A conjunction of bits
  that is 1 has every bit 1, and a reduction by "and" over all axes that is 1 has a 1 at every index, so the
  precondition gives the test at every entry of every array.
-/
import proofs.«168689_j4140348474008_2_alg».proof.Pre_finite_inputs
import proofs.«168689_j4140348474008_2_alg».proof.Proof.Gen.Pre_finite_inputs
import proofs.«168689_j4140348474008_2_alg».proof.Proof.Spec
import Idealize.ShloMosaic.Lib.ReduceAll
import Idealize.ShloMosaic.Lib.ValueIdx
import Idealize.ShloMosaic.PureOps.Ideal.Laws

noncomputable section

namespace Cert.MsgPass.Finite

open Idealize.ShloMosaic

/-- The rank-0 shape has one index. -/
instance subsingleton_scalar_idx : Subsingleton (⟨0, ![]⟩ : Shape).Idx := ⟨fun a b => funext fun d => d.elim0⟩

/-- The f32 pattern of +∞ is the top element of the extended reals. -/
theorem ofBits_inf_f32 : Ideal.ofBits .f32 0x7F800000#32 = (⊤ : EReal) := by simp [Ideal.ofBits, Ideal.ieee]

/-- An extended real whose absolute value max x (-x) is below +∞ is neither infinity. -/
theorem ne_top_bot_of_abs_lt_top (x : EReal) (h : Ideal.cmp .olt (max x (-x)) ⊤ = 1#1) : x ≠ ⊤ ∧ x ≠ ⊥ := by
  induction x using EReal.rec with
  | bot => simp [Ideal.cmp] at h
  | coe r => exact ⟨EReal.coe_ne_top r, EReal.coe_ne_bot r⟩
  | top => simp [Ideal.cmp] at h

/-- One test of the precondition: if the reduction by "and", over all axes, of the comparison |x| < +∞ is 1, then
    every entry of x is a real number. -/
theorem isReal_of_all_lt_inf {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
          (cmpf .olt (Host.absf x) (broadcastInDim s ![] hb (constant (F := Ideal) ⟨0, ![]⟩ .f32 0x7F800000#32)))
          (constantI ⟨0, ![]⟩ 1 1#1) hr hu ValueIdx.ix0 = 1#1) :
    Cert.MsgPass.IsReal x := by
  refine Cert.MsgPass.isReal_of_ne x fun i => ?_
  have hi := Host.reduce_andi_all _ _ hr hu ValueIdx.ix0 e i
  refine ne_top_bot_of_abs_lt_top (x i) ?_
  rw [← ofBits_inf_f32]
  exact hi

/-- THE PRECONDITION MAKES EVERY INPUT REAL: if the conjunction of the seven tests is 1, each of the seven argument
    arrays has only real entries. -/
theorem isReal_of_pre [Cert.Pre_finite_inputs.Facts]
    (a0 a1 : FVec Ideal Cert.Pre_finite_inputs.S16x128x128 .f32)
    (a2 : FVec Ideal Cert.Pre_finite_inputs.S16x128x128x128 .f32)
    (a3 : FVec Ideal Cert.Pre_finite_inputs.S128x384 .f32)
    (a4 : FVec Ideal Cert.Pre_finite_inputs.S128 .f32)
    (a5 : FVec Ideal Cert.Pre_finite_inputs.S128x256 .f32)
    (a6 : FVec Ideal Cert.Pre_finite_inputs.S128 .f32)
    (h : Cert.Pre_finite_inputs.fn (F := Ideal) a0 a1 a2 a3 a4 a5 a6 = fun _ => 1#1) :
    Cert.MsgPass.IsReal a0 ∧ Cert.MsgPass.IsReal a1 ∧ Cert.MsgPass.IsReal a2 ∧ Cert.MsgPass.IsReal a3
      ∧ Cert.MsgPass.IsReal a4 ∧ Cert.MsgPass.IsReal a5 ∧ Cert.MsgPass.IsReal a6 := by
  have h0 := congrFun h ValueIdx.ix0
  dsimp only [Cert.Pre_finite_inputs.fn, Cert.Pre_finite_inputs.fn_part1, andi] at h0
  simp only [IntOp.andi_eq_one] at h0
  obtain ⟨⟨⟨⟨⟨⟨e0, e1⟩, e2⟩, e3⟩, e4⟩, e5⟩, e6⟩ := h0
  exact ⟨isReal_of_all_lt_inf a0 _ _ _ e0, isReal_of_all_lt_inf a1 _ _ _ e1, isReal_of_all_lt_inf a2 _ _ _ e2,
    isReal_of_all_lt_inf a3 _ _ _ e3, isReal_of_all_lt_inf a4 _ _ _ e4, isReal_of_all_lt_inf a5 _ _ _ e5,
    isReal_of_all_lt_inf a6 _ _ _ e6⟩

end Cert.MsgPass.Finite

end
-- ==== Proof.lean ====
/-
  A message-passing layer on a dense graph: the kernel against its plain reference.

  For batch entry `b`, receiver `j` and feature `k` the reference sums over the senders `i` the masked message
  `(W₁ h[b,i] + W₂ h[b,j] + W₃ e[b,i,j] + bm) · adj[b,i,j]`, joins the result with the old state and applies the update
  weight and bias. The kernel, one batch entry per grid point, takes the masked sum before the projections:
  `Σᵢ adj[i,j] (W₁ h[i]) + (Σᵢ adj[i,j]) (W₂ h[j] + bm) + W₃ (Σᵢ adj[i,j] e[i,j])`, the last sum in four chunks of 32
  senders. On the extended reals every product into a zero tile is the plain sum, every change of float format the
  identity, and a finite sum may be regrouped freely; the two orders of the message agree by distributivity, which holds
  because the precondition makes every input entry a real number.

  The kernel's frames are the generated ones; the reference's frame is its generated run. The result array after the
  kernel's run is the layer with the regrouped message (block by block, then over the whole array); after the reference's
  run it is the layer; on real inputs these are one function.
-/
import proofs.«168689_j4140348474008_2_alg».proof.Defs
import proofs.«168689_j4140348474008_2_alg».proof.Proof.Gen.Kernel
import proofs.«168689_j4140348474008_2_alg».proof.Proof.Gen.Kernel.Skeleton
import proofs.«168689_j4140348474008_2_alg».proof.Proof.Gen.Kernel.Loops
import proofs.«168689_j4140348474008_2_alg».proof.Proof.Gen.Kernel.Launch
import proofs.«168689_j4140348474008_2_alg».proof.Proof.Gen.Kernel.Points
import proofs.«168689_j4140348474008_2_alg».proof.Proof.Gen.Kernel.Frame
import proofs.«168689_j4140348474008_2_alg».proof.Proof.Gen.KernelIdeal
import proofs.«168689_j4140348474008_2_alg».proof.Proof.Gen.KernelIdeal.Skeleton
import proofs.«168689_j4140348474008_2_alg».proof.Proof.Gen.KernelIdeal.Loops
import proofs.«168689_j4140348474008_2_alg».proof.Proof.Gen.KernelIdeal.Launch
import proofs.«168689_j4140348474008_2_alg».proof.Proof.Gen.KernelIdeal.Points
import proofs.«168689_j4140348474008_2_alg».proof.Proof.Gen.KernelIdeal.Frame
import proofs.«168689_j4140348474008_2_alg».proof.Proof.Gen.ReferenceIdeal
import proofs.«168689_j4140348474008_2_alg».proof.Proof.Gen.Pre_finite_inputs
import proofs.«168689_j4140348474008_2_alg».proof.Proof.Gen.KernelIdeal.Value
import proofs.«168689_j4140348474008_2_alg».proof.Proof.Gen.ReferenceIdeal.Run
import proofs.«168689_j4140348474008_2_alg».proof.Proof.Gen.ReferenceIdeal.Read
import proofs.«168689_j4140348474008_2_alg».proof.Proof.Spec
import proofs.«168689_j4140348474008_2_alg».proof.Proof.KernelArray
import proofs.«168689_j4140348474008_2_alg».proof.Proof.RefLayer
import proofs.«168689_j4140348474008_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the seven arguments, both programs end with the layer of those arguments: the kernel
    with the regrouped message, which on the real inputs the precondition grants is the message; the reference
    operation by operation. -/
theorem algebraic : Cert.algebraic_KernelIdeal_ReferenceIdeal := by
  intro m ρ m' ρ' hpre hagree
  refine ⟨fun c => Cert.MsgPass.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩) (Cert.KernelIdeal.Arr.run m ρ)
    obtain ⟨r0, r1, r2, r3, r4, r5, r6⟩ := Cert.MsgPass.Finite.isReal_of_pre _ _ _ _ _ _ _ (hpre c)
    exact Cert.MsgPass.layerRegrouped_eq_layer _ _ r0 r1 r2 r3 r4
  · refine (θ_run Cert.ReferenceIdeal.defs _ _).mono (fun r h c => ⟨?_, (h c).2⟩)
      (Cert.ReferenceIdeal.Value.run (F := Ideal) m' ρ')
    rw [(h c).1, Cert.ReferenceIdeal.Read.val_main_v23_eq, Cert.ReferenceIdeal.RefValue.result_eq,
      (hagree c).1, (hagree c).2.1, (hagree c).2.2.1, (hagree c).2.2.2.1, (hagree c).2.2.2.2.1, (hagree c).2.2.2.2.2.1,
      (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
